-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩

abbrev nBuf : Space → Nat
  | .hbm => 38
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S128x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S128x128, .f32⟩
  | .hbm, ⟨4, _⟩ => ⟨S100000x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.HostFold.lean ====
/-
  What the idealized kernel's host operations leave in the buffers its two regions read.

  From the edge array (two rows of 1600000 integers: row 0 the target node of each edge, row 1 its source node) the
  host computes, before the first region: the source vector `colVec`; the degree of every node, the number of edges whose
  source is that node, as a scatter-add of ones into zeros; and the scaling `dis`: the reciprocal square root of the
  degree where the degree is positive, zero elsewhere. The first region reads the features, the transposed weight and
  `dis` laid out as a column. Between the regions the host gathers rows of the first region's output at the wrapped
  source indices (a negative index has the node count added) and scatter-adds them by target row into zeros; the second
  region reads that sum and the `dis` column again. Each statement below reads one buffer at one segment boundary back
  to these terms of the launch memory.
-/
import proofs.«179773_j80247168959057_2_alg».proof.Proof.Gen.KernelIdeal.Frame
import Idealize.ShloMosaic.PureOps.Ideal
import proofs.«179773_j80247168959057_2_alg».proof.Proof.LibTypedRef

set_option maxRecDepth 16384

noncomputable section

namespace Cert.KernelIdeal.HostFold

open Cert.KernelIdeal Cert.KernelIdeal.Gen
open Idealize.ShloMosaic Idealize.ShloMosaic.TcCoe Idealize.SL.Sem Idealize.ShloMosaic.StableHlo

/-- The edges' target nodes: row 0 of the edge array. -/
def rowVec (ei : IVec S2x1600000 32) : IVec S1600000 32 :=
  shapeCast S1600000 (extractStridedSlice S1x1600000 ![0, 0] ei slices_S2x1600000_S1x1600000_0_0) shapeCasts_S1x1600000_S1600000

/-- The edges' source nodes: row 1 of the edge array. -/
def colVec (ei : IVec S2x1600000 32) : IVec S1600000 32 :=
  shapeCast S1600000 (extractStridedSlice S1x1600000 ![1, 0] ei slices_S2x1600000_S1x1600000_1_0) shapeCasts_S1x1600000_S1600000

/-- A vector of node indices laid out as a column of start indices. -/
def asColumn (v : IVec S1600000 32) : IVec S1600000x1 32 := broadcastInDim S1600000x1 ![0] bcast_S1600000_S1600000x1_0 v

/-- Python's index wrap: a negative index has the node count added. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The all-zero vector over the nodes. -/
def zeroVec : FVec Ideal S100000 .f32 := broadcastInDim S100000 ![] bcast_S_S100000 (constant (F := Ideal) S_ .f32 0x00000000#32)

/-- The all-one vector over the edges. -/
def oneVec : FVec Ideal S1600000 .f32 := broadcastInDim S1600000 ![] bcast_S_S1600000 (constant (F := Ideal) S_ .f32 0x3F800000#32)

/-- The all-zero array over nodes and channels. -/
def zeroMat : FVec Ideal S100000x128 .f32 := broadcastInDim S100000x128 ![] bcast_S_S100000x128 (constant (F := Ideal) S_ .f32 0x00000000#32)

/-- A node's degree: the ones of the edges whose source it is, added into zero. -/
def degree (ei : IVec S2x1600000 32) : FVec Ideal S100000 .f32 :=
  Host.scatterAdd (F := Ideal) scatter_S100000_S1600000x1_S1600000_n_0_0_1 zeroVec (asColumn (colVec ei)) oneVec

/-- The scaling: the reciprocal square root of a positive degree, zero elsewhere. -/
def dis (ei : IVec S2x1600000 32) : FVec Ideal S100000 .f32 :=
  select (cmpf (F := Ideal) .ogt (degree ei) zeroVec) (Host.rsqrt (F := Ideal) (degree ei)) zeroVec

/-- The scaling laid out as a column. -/
def disCol (ei : IVec S2x1600000 32) : FVec Ideal S100000x1 .f32 := shapeCast S100000x1 (dis ei) shapeCasts_S100000_S100000x1

/-- Rows of `X` gathered at the wrapped source indices and added by target row into zeros. -/
def aggregate (ei : IVec S2x1600000 32) (X : FVec Ideal S100000x128 .f32) : FVec Ideal S100000x128 .f32 :=
  Host.scatterAdd (F := Ideal) scatter_S100000x128_S1600000x1_S1600000x128_1_0_0_1 zeroMat (asColumn (rowVec ei))
    (Host.gather gather_S100000x128_S1600000x1_S1600000x128_1_0_n_n_0_1_1128 X (asColumn (wrap (colVec ei))))

variable (m : (ℓ : Loc nD τ sig) → Buf (Elt Ideal) ℓ) (ρ : Dev nD → PrngReg)

/-! ## One stretch of host operations at a time, from any contents

Each stretch is read from arbitrary contents `Wv`: what it leaves in the buffers later segments read. -/

section Hops
variable (Wv : Valuation τ sig (Elt Ideal))

theorem stretch0_rows : StableHlo.after hostOps0 Wv (Proc.devRef .tc main_v1) = rowVec (Wv (Proc.devRef .tc main_arg2)) := by
  after_results
  rfl

theorem stretch0_cols : StableHlo.after hostOps0 Wv (Proc.devRef .tc main_v3) = colVec (Wv (Proc.devRef .tc main_arg2)) := by
  after_results
  rfl

theorem stretch0_positive :
    StableHlo.after hostOps0 Wv (Proc.devRef .tc main_v9) = cmpf (F := Ideal) .ogt (degree (Wv (Proc.devRef .tc main_arg2))) zeroVec := by
  after_results
  rfl

theorem stretch0_rsqrt :
    StableHlo.after hostOps0 Wv (Proc.devRef .tc main_v10) = Host.rsqrt (F := Ideal) (degree (Wv (Proc.devRef .tc main_arg2))) := by
  after_results
  rfl

theorem stretch0_zero :
    StableHlo.after hostOps0 Wv (Proc.devRef .tc main_cst_2) = constant (F := Ideal) S_ .f32 0x00000000#32 := by
  after_results

theorem stretch0_features : StableHlo.after hostOps0 Wv (Proc.devRef .tc main_arg0) = Wv (Proc.devRef .tc main_arg0) := by
  after_results

theorem stretch0_weight : StableHlo.after hostOps0 Wv (Proc.devRef .tc main_arg1) = Wv (Proc.devRef .tc main_arg1) := by
  after_results

theorem stretch1_select :
    StableHlo.after hostOps0_1 Wv (Proc.devRef .tc main_v11)
      = select (Wv (Proc.devRef .tc main_v9)) (Wv (Proc.devRef .tc main_v10))
          (broadcastInDim S100000 ![] bcast_S_S100000 (Wv (Proc.devRef .tc main_cst_2))) := by
  after_results
  simp only [Cert.TypedRef.ofBuf_toBuf]
  rfl

theorem stretch1_keeps (b : Ref sig .tc) (h9 : b ≠ main_call0_v0) (h10 : b ≠ main_call0_v1) (h11 : b ≠ main_v11) :
    StableHlo.after hostOps0_1 Wv (Proc.devRef .tc b) = Wv (Proc.devRef .tc b) :=
  StableHlo.after_of_writes_sub (W := [main_call0_v0, main_call0_v1, main_v11]) hostOps0_1 Wv
    (by simp only [List.Forall, StableHlo.unary_writes, StableHlo.ternary_writes]; decide)
    (by simp only [List.mem_cons, List.not_mem_nil, or_false, not_or]; exact ⟨h9, h10, h11⟩)

theorem stretch2_column :
    StableHlo.after hostOps0_2 Wv (Proc.devRef .tc main_v12)
      = shapeCast S100000x1 (Wv (Proc.devRef .tc main_v11)) shapeCasts_S100000_S100000x1 := by
  after_results
  rfl

theorem stretch2_weight :
    StableHlo.after hostOps0_2 Wv (Proc.devRef .tc main_v13)
      = transpose S128x128 [1, 0] (Wv (Proc.devRef .tc main_arg1)) transposes_S128x128_S128x128_1_0 := by
  after_results

theorem stretch2_keeps (b : Ref sig .tc) (h12 : b ≠ main_v12) (h13 : b ≠ main_v13) :
    StableHlo.after hostOps0_2 Wv (Proc.devRef .tc b) = Wv (Proc.devRef .tc b) :=
  StableHlo.after_of_writes_sub (W := [main_v12, main_v13]) hostOps0_2 Wv
    (by simp only [List.Forall, StableHlo.unary_writes, StableHlo.reshape_writes]; decide)
    (by simp only [List.mem_cons, List.not_mem_nil, or_false, not_or]; exact ⟨h12, h13⟩)

end Hops

/-! ## At the first region's entry -/

theorem launch_arg (c : Dev nD) (b : Ref sig .tc) : W0 m ρ c (Proc.devRef .tc b) = m ((c : Thread nD τ).loc b) := rfl

theorem entry0_features (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  rw [stretch2_keeps _ _ (by decide) (by decide), stretch1_keeps _ _ (by decide) (by decide) (by decide), stretch0_features, launch_arg]

theorem entry0_weight (c : Dev nD) :
    V3 m ρ c main_v13 = transpose S128x128 [1, 0] (m ((c : Thread nD τ).loc main_arg1)) transposes_S128x128_S128x128_1_0 := by
  show StableHlo.after hostOps0_2 (StableHlo.after hostOps0_1 (StableHlo.after hostOps0 (W0 m ρ c))) (Proc.devRef .tc main_v13) = _
  rw [stretch2_weight, stretch1_keeps _ _ (by decide) (by decide) (by decide), stretch0_weight, launch_arg]

theorem entry0_dis (c : Dev nD) : V3 m ρ c main_v12 = disCol (m ((c : Thread nD τ).loc main_arg2)) := by
  show StableHlo.after hostOps0_2 (StableHlo.after hostOps0_1 (StableHlo.after hostOps0 (W0 m ρ c))) (Proc.devRef .tc main_v12) = _
  rw [stretch2_column, stretch1_select, stretch0_positive, stretch0_rsqrt, stretch0_zero, launch_arg]
  rfl

theorem entry0_rows (c : Dev nD) : W3 m ρ c (Proc.devRef .tc main_v1) = rowVec (m ((c : Thread nD τ).loc main_arg2)) := by
  show StableHlo.after hostOps0_2 (StableHlo.after hostOps0_1 (StableHlo.after hostOps0 (W0 m ρ c))) (Proc.devRef .tc main_v1) = _
  rw [stretch2_keeps _ _ (by decide) (by decide), stretch1_keeps _ _ (by decide) (by decide) (by decide), stretch0_rows, launch_arg]

theorem entry0_cols (c : Dev nD) : W3 m ρ c (Proc.devRef .tc main_v3) = colVec (m ((c : Thread nD τ).loc main_arg2)) := by
  show StableHlo.after hostOps0_2 (StableHlo.after hostOps0_1 (StableHlo.after hostOps0 (W0 m ρ c))) (Proc.devRef .tc main_v3) = _
  rw [stretch2_keeps _ _ (by decide) (by decide), stretch1_keeps _ _ (by decide) (by decide) (by decide), stretch0_cols, launch_arg]

/-! ## At the first region's exit: its output at what the region leaves, everything else as entered -/

theorem exit0_out (c : Dev nD) : W4 m ρ c (Proc.devRef .tc main_v14) = (dat0 (V3 m ρ) c).arrAt 3 cfg0.N := W4_arr m ρ c 3

theorem exit0_dis (c : Dev nD) : W4 m ρ c (Proc.devRef .tc main_v12) = V3 m ρ c main_v12 :=
  (W4_arr m ρ c 2).trans (((dat0 (V3 m ρ) c).arrAt_in 2 rfl _).trans (A_eq0 (V3 m ρ) c 2))

theorem exit0_rows (c : Dev nD) : W4 m ρ c (Proc.devRef .tc main_v1) = W3 m ρ c (Proc.devRef .tc main_v1) :=
  W4_of_ne m ρ c main_v1 (by decide)

theorem exit0_cols (c : Dev nD) : W4 m ρ c (Proc.devRef .tc main_v3) = W3 m ρ c (Proc.devRef .tc main_v3) :=
  W4_of_ne m ρ c main_v3 (by decide)

/-! ## At the second region's entry -/

theorem entry1_dis (c : Dev nD) : V5 m ρ c main_v12 = W4 m ρ c (Proc.devRef .tc main_v12) := by
  show StableHlo.after hostOps1 (W4 m ρ c) (Proc.devRef .tc main_v12) = _
  after_results

theorem entry1_agg (c : Dev nD) :
    V5 m ρ c main_v24 = Host.scatterAdd (F := Ideal) scatter_S100000x128_S1600000x1_S1600000x128_1_0_0_1 zeroMat
      (asColumn (W4 m ρ c (Proc.devRef .tc main_v1)))
      (Host.gather gather_S100000x128_S1600000x1_S1600000x128_1_0_n_n_0_1_1128 (W4 m ρ c (Proc.devRef .tc main_v14))
        (asColumn (wrap (W4 m ρ c (Proc.devRef .tc main_v3))))) := by
  show StableHlo.after hostOps1 (W4 m ρ c) (Proc.devRef .tc main_v24) = _
  after_results
  rfl

/-! ## At the second region's exit -/

theorem exit1_out (c : Dev nD) : W6 m ρ c (Proc.devRef .tc main_v25) = (dat1 (V5 m ρ) c).arrAt 2 cfg1.N := W6_arr m ρ c 2

end Cert.KernelIdeal.HostFold

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«179773_j80247168959057_2_alg».proof.Proof.LibDense
import proofs.«179773_j80247168959057_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.ProjRegion.lean ====
/-
  The first region's value: the array times the weight matrix, every row of the product scaled by that row's factor.

  The region walks the 100000 rows in 20 blocks of 5000.  At a point it holds rows 5000 t … 5000 t + 4999 of the
  array and of the one-column array of factors, and the whole 128 × 128 weight matrix; it multiplies the held rows
  into the weights (the narrowing of the operands is the identity on the extended reals, and the accumulator starts
  at zero), scales each row of the product by its factor, and writes the block back to the same rows of the result.
  The matrix product and the row scaling are row-local, so a block of the result is the same block of the product of
  the whole arrays with its rows scaled; the 20 blocks cover every row (row r lies in block r / 5000), so the
  result array ends holding the whole product with its rows scaled.
-/
import proofs.«179773_j80247168959057_2_alg».proof.Proof.Gen.KernelIdeal.Frame
import proofs.«179773_j80247168959057_2_alg».proof.Proof.LibDense
import proofs.«179773_j80247168959057_2_alg».proof.Proof.LibRowScale
import Idealize.ShloMosaic.Lib.Pipeline.Value

noncomputable section

namespace Cert.KernelIdeal.RegionValue

open Cert.KernelIdeal Cert.KernelIdeal.Gen Cert.Dense Cert.RowScale
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem proj_zeros : (![0, 0] : Fin 2 → Nat) = fun _ => 0 := funext fun a => by fin_cases a <;> rfl

/-- The body's arithmetic on its three held blocks: the rows times the weights, each row scaled by its factor. -/
theorem proj_payload (x : FVec Ideal S5000x128 .f32) (w : FVec Ideal S128x128 .f32) (s : FVec Ideal S5000x1 .f32) :
    k0_pay1 (F := Ideal) x w s = scaleRows (mm x w) s := by
  unfold k0_pay1
  simp only [shapeCast_self]
  rw [matmul_zero_eq_mm dot_S5000x128_S128x128_S5000x128_1_0_0_1_n_n rfl rfl rfl rfl rfl rfl none]
  exact vecScaleRows _ s broadcasts_S5000x1_S5000x128

/-- Where each window sits at a point: the row-blocked windows at block index `t` along the rows and `0` along
    the columns, the weight matrix always at its one block. -/
theorem proj_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What a point writes back is its block of the whole product with its rows scaled. -/
theorem proj_flushed (c : Dev nD) (t : Fin cfg0.N) :
    (dat0 (F := Ideal) V c).flushed 3 t
      = ((cfg0.win 3).blk t).view.read (Elt Ideal)
          (scaleRows (mm (V c main_arg0 : Mat 100000 128) (V c main_v13 : Mat 128 128)) (V c main_v12 : Mat 100000 1)) := by
  show (cfg0.win 3).cut (grid0.coords t) ((dat0 V c).after 3 t) = _
  rw [after0_3]
  unfold out0_3
  rw [View.canon_unit_zero proj_zeros]
  simp only [View.ld_unit_zero (S := S5000x128) proj_zeros, View.ld_unit_zero (S := S128x128) proj_zeros,
    View.ld_unit_zero (S := S5000x1) proj_zeros]
  rw [proj_payload]
  obtain ⟨e0, e1, e2, e3, e4, e5, e6, e7⟩ := proj_index t
  funext j
  show scaleRows (mm (iblk0 V c 0 t) (iblk0 V c 1 t)) (iblk0 V c 2 t) j
    = scaleRows (mm (V c main_arg0 : Mat 100000 128) (V c main_v13 : Mat 128 128)) (V c main_v12 : Mat 100000 1)
        (((cfg0.win 3).blk t).view.emb j)
  refine scaleRows_at _ _ _ _ j _ (mm_at _ _ _ _ j _ (fun k => ?_) (fun k => ?_)) ?_
  · show V c main_arg0 (((cfg0.win 0).blk t).view.emb (ix2 (c0 j) k))
      = V c main_arg0 (ix2 (c0 (((cfg0.win 3).blk t).view.emb j)) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v13 (((cfg0.win 1).blk t).view.emb (ix2 k (c1 j)))
      = V c main_v13 (ix2 k (c1 (((cfg0.win 3).blk t).view.emb j)))
    refine congrArg (V c main_v13) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v12 (((cfg0.win 2).blk t).view.emb (ix2 (c0 j) (0 : Fin 1)))
      = V c main_v12 (ix2 (c0 (((cfg0.win 3).blk t).view.emb j)) (0 : Fin 1))
    refine congrArg (V c main_v12) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the result array is in a point's block iff each coordinate is in the block's range on its axis. -/
theorem proj_mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every index of the result array is in some point's block: row `r` is in block `r / 5000`. -/
theorem proj_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < cfg0.N := by show (i 0).val / 5000 < 20; omega
  obtain ⟨e0, e1, e2, e3, e4, e5, e6, e7⟩ := proj_index ⟨(i 0).val / 5000, ht⟩
  refine ⟨⟨(i 0).val / 5000, ht⟩, flush0_3 _, ?_⟩
  rw [proj_mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- The first region leaves its result array at the array times the weights with every row scaled by the row's factor. -/
theorem proj_final (c : Dev nD) :
    (dat0 (F := Ideal) V c).arrAt 3 cfg0.N = scaleRows (mm (V c main_arg0) (V c main_v13)) (V c main_v12) :=
  (dat0 V c).arrAt_eq_of_cover 3
    (scaleRows (mm (V c main_arg0 : Mat 100000 128) (V c main_v13 : Mat 128 128)) (V c main_v12 : Mat 100000 1))
    (fun t _ => proj_flushed V c t) proj_cover

end Cert.KernelIdeal.RegionValue

end
-- ==== Proof.ScaleRegion.lean ====
/-
  The second region's value: every row of the array it reads scaled by that row's factor.

  The region walks the 100000 rows in 20 blocks of 5000.  At a point it holds rows 5000 t … 5000 t + 4999 of the
  array and of the one-column array of factors, multiplies each held row by its factor, and writes the block back to
  the same rows of the result.  Scaling rows is row-local, so a block of the scaled rows is the same block of the
  whole array with its rows scaled; the 20 blocks cover every row (row r lies in block r / 5000), so the result
  array ends holding the whole array with its rows scaled.
-/
import proofs.«179773_j80247168959057_2_alg».proof.Proof.Gen.KernelIdeal.Frame
import proofs.«179773_j80247168959057_2_alg».proof.Proof.LibDense
import proofs.«179773_j80247168959057_2_alg».proof.Proof.LibRowScale
import Idealize.ShloMosaic.Lib.Pipeline.Value

noncomputable section

namespace Cert.KernelIdeal.RegionValue

open Cert.KernelIdeal Cert.KernelIdeal.Gen Cert.Dense Cert.RowScale
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem scale_zeros : (![0, 0] : Fin 2 → Nat) = fun _ => 0 := funext fun a => by fin_cases a <;> rfl

/-- The body's arithmetic on its two held blocks: the rows of the first scaled by the factors in the second. -/
theorem scale_payload (s : FVec Ideal S5000x1 .f32) (x : FVec Ideal S5000x128 .f32) :
    k1_pay1 (F := Ideal) s x = scaleRows x s := by
  unfold k1_pay1
  simp only [shapeCast_self]
  exact vecScaleRows x s broadcasts_S5000x1_S5000x128

/-- Every window of the region sits on the same rows at a point: block index `t` along the rows, `0` along the
    columns. -/
theorem scale_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What a point writes back is its block of the whole array with its rows scaled. -/
theorem scale_flushed (c : Dev nD) (t : Fin cfg1.N) :
    (dat1 (F := Ideal) V c).flushed 2 t
      = ((cfg1.win 2).blk t).view.read (Elt Ideal) (scaleRows (V c main_v24 : Mat 100000 128) (V c main_v12 : Mat 100000 1)) := by
  show (cfg1.win 2).cut (grid1.coords t) ((dat1 V c).after 2 t) = _
  rw [after1_2]
  unfold out1_2
  rw [View.canon_unit_zero scale_zeros]
  simp only [View.ld_unit_zero (S := S5000x128) scale_zeros, View.ld_unit_zero (S := S5000x1) scale_zeros]
  rw [scale_payload]
  obtain ⟨e0, e1, e2, e3, e4, e5⟩ := scale_index t
  funext j
  show scaleRows (iblk1 V c 0 t) (iblk1 V c 1 t) j = scaleRows (V c main_v24 : Mat 100000 128) (V c main_v12 : Mat 100000 1) (((cfg1.win 2).blk t).view.emb j)
  refine scaleRows_at _ _ _ _ j _ ?_ ?_
  · show V c main_v24 (((cfg1.win 0).blk t).view.emb j) = V c main_v24 (((cfg1.win 2).blk t).view.emb j)
    refine congrArg (V c main_v24) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v12 (((cfg1.win 1).blk t).view.emb (ix2 (c0 j) (0 : Fin 1))) = V c main_v12 (ix2 (c0 (((cfg1.win 2).blk t).view.emb j)) (0 : Fin 1))
    refine congrArg (V c main_v12) (funext fun a => Fin.ext ?_)
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega

/-- An index of the result array is in a point's block iff each coordinate is in the block's range on its axis. -/
theorem scale_mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v25).slice (win1_2.rect t)).set ↔ _
  rw [View.set_slice_whole, Rect.mem_set_unit]
  exact Iff.rfl

/-- Every index of the result array is in some point's block: row `r` is in block `r / 5000`. -/
theorem scale_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := by show (i 0).val / 5000 < 20; omega
  obtain ⟨e0, e1, e2, e3, e4, e5⟩ := scale_index ⟨(i 0).val / 5000, ht⟩
  refine ⟨⟨(i 0).val / 5000, ht⟩, flush1_2 _, ?_⟩
  rw [scale_mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- The second region leaves its result array at the array it read with every row scaled by the row's factor. -/
theorem scale_final (c : Dev nD) :
    (dat1 (F := Ideal) V c).arrAt 2 cfg1.N = scaleRows (V c main_v24) (V c main_v12) :=
  (dat1 V c).arrAt_eq_of_cover 2 (scaleRows (V c main_v24 : Mat 100000 128) (V c main_v12 : Mat 100000 1))
    (fun t _ => scale_flushed V c t) scale_cover

end Cert.KernelIdeal.RegionValue

end
-- ==== Proof.KernelRun.lean ====
/-
  The idealized kernel's run with its result named.

  @main is six segments: three stretches of host operations, the projection region, a fourth stretch (the gather of
  projected rows and their scatter-add by target row), and the post-scaling region. The buffer contents at the segment
  boundaries are a fold from the launch memory (`W0 … W6`); every weakly fair execution terminates with every unscoped
  buffer at the last boundary's contents. Read at the result buffer this names the result, `W6` at `main_v25`; read at
  the three arguments it gives them back as launched.
-/
import proofs.«179773_j80247168959057_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the six segments, the last thread state read against the
    final state. -/
theorem run_out : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v25 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunValue

end
-- ==== Proof.KernelValue.lean ====
/-
  The idealized kernel's result as one function of its three arguments.

  With `h = x · wᵀ` the projected features, `dis` the degree scaling of the nodes and `aggregate` the sum over the edges
  arriving at a node of the rows gathered at the edges' sources, the result is
  `scaleRows (aggregate (scaleRows h dis)) dis`: the projection region leaves `scaleRows h dis`, the host aggregates it,
  the second region scales the rows of the sum by `dis` again. The chain below reads the result buffer back through the
  segment boundaries to the launch memory.
-/
import proofs.«179773_j80247168959057_2_alg».proof.Proof.HostFold
import proofs.«179773_j80247168959057_2_alg».proof.Proof.ProjRegion
import proofs.«179773_j80247168959057_2_alg».proof.Proof.ScaleRegion
import proofs.«179773_j80247168959057_2_alg».proof.Proof.KernelRun

set_option maxRecDepth 16384

noncomputable section

namespace Cert.KernelIdeal.KernelValue

open Cert.KernelIdeal Cert.KernelIdeal.Gen Cert.KernelIdeal.HostFold Cert.KernelIdeal.RegionValue Cert.Dense Cert.RowScale
open Idealize.ShloMosaic Idealize.ShloMosaic.TcCoe Idealize.SL.Sem

/-- The result: project, scale the rows by the degree scaling, aggregate over the edges, scale the rows again. -/
def result (x : FVec Ideal S100000x128 .f32) (w : FVec Ideal S128x128 .f32) (e : IVec S2x1600000 32) :
    FVec Ideal S100000x128 .f32 :=
  scaleRows (aggregate e (scaleRows (mm x (transpose S128x128 [1, 0] w transposes_S128x128_S128x128_1_0)) (disCol e))) (disCol e)

variable (m : (ℓ : Loc nD τ sig) → Buf (Elt Ideal) ℓ) (ρ : Dev nD → PrngReg)

/-- The result buffer at the last boundary is `result` of the launch contents of the arguments. -/
theorem out_eq (c : Dev nD) :
    W6 m ρ c (Proc.devRef .tc main_v25)
      = result (m ((c : Thread nD τ).loc main_arg0)) (m ((c : Thread nD τ).loc main_arg1)) (m ((c : Thread nD τ).loc main_arg2)) := by
  rw [exit1_out, scale_final (V5 m ρ) c, entry1_agg, entry1_dis, exit0_out, exit0_dis, exit0_rows, exit0_cols,
    proj_final (V3 m ρ) c, entry0_features, entry0_weight, entry0_dis, entry0_rows, entry0_cols]
  rfl

/-- Every weakly fair execution of the idealized kernel terminates with the result buffer at `result` of the arguments
    and the arguments unchanged. -/
theorem run : θ_run defs (onTc (τ := τ) (main (F := Ideal))) ⟨m, fun _ => 0, ρ⟩ (fun r => ∀ c : Dev nD,
      r.2.mem ((c.tc : Thread nD τ).loc main_v25)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_eq m ρ c), (h c).2⟩) (Cert.KernelIdeal.RunValue.run_out m ρ)

end Cert.KernelIdeal.KernelValue

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«179773_j80247168959057_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibScatterRows.lean ====
/-
  A scatter of whole rows into a rank-2 array at a column of scatter indices: where an update lands.

  Updates `[M, C]` go into an operand `[N, C]` at the scatter indices `[M, 1]`: the updates' second axis is the one window
  axis, the operand's first axis is inserted and is the one the scatter index names, the index vector lies along the
  column's second axis. The update at `(e, q)` lands at row `idx[e, 0]` read as a signed integer — the window coordinate
  on the inserted axis is zero — and is dropped when that row is outside the operand. So an update that lands on an
  entry comes from an edge whose scatter index, read signed, is that entry's row. The dimension numbers enter through
  their fields.
-/
import Idealize.ShloMosaic.PureOps
import Idealize.ShloMosaic.Lib.ValueIdx

noncomputable section

namespace Cert.ScatterRows

open Idealize.ShloMosaic Idealize.ShloMosaic.ValueIdx

/-- Two records of scatter dimension numbers with the same fields are the same record. -/
theorem scatterDims_eq {s si u : Shape} (d d' : ScatterDims s si u) (h1 : d.updateWindowDims = d'.updateWindowDims)
    (h2 : d.insertedWindowDims = d'.insertedWindowDims) (h3 : d.scatterDimsToOperandDims = d'.scatterDimsToOperandDims)
    (h4 : d.indexVectorDim = d'.indexVectorDim) : d = d' := by
  obtain ⟨uw, iw, sd, iv, wf⟩ := d
  obtain ⟨uw', iw', sd', iv', wf'⟩ := d'
  dsimp only at h1 h2 h3 h4
  subst h1 h2 h3 h4
  rfl

/-- AN UPDATE THAT LANDS ON ENTRY `i` comes from an edge whose scatter index, read signed, is `i`'s row. -/
theorem hit_row {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C)
    (i : (⟨2, ![N, C]⟩ : Shape).Idx) (h : d.resultIdx? (ix2 e q) idx = some i) :
    (idx (ix2 e (0 : Fin 1))).toInt = ((i 0).val : Int) := by
  obtain ⟨uw, iw, sd, iv, wf⟩ := d
  dsimp only at h1 h2 h3 h4
  subst h1 h2 h3 h4
  have hs : (⟨[1], [0], [0], 1, wf⟩ : ScatterDims ⟨2, ![N, C]⟩ ⟨2, ![M, 1]⟩ ⟨2, ![M, C]⟩).start (ix2 e q) idx 0
      = (idx (ix2 e (0 : Fin 1))).toInt := by
    unfold ScatterDims.start
    rw [dif_pos (List.mem_singleton.mpr rfl)]
    have hsi : (⟨[1], [0], [0], 1, wf⟩ : ScatterDims ⟨2, ![N, C]⟩ ⟨2, ![M, 1]⟩ ⟨2, ![M, C]⟩).siIdx (ix2 e q)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (⟨[1], [0], [0], 1, wf⟩ : ScatterDims ⟨2, ![N, C]⟩ ⟨2, ![M, 1]⟩ ⟨2, ![M, C]⟩).window (ix2 e q) 0 = 0 := by
    unfold ScatterDims.window
    rw [dif_neg (by simp [ScatterDims.sKept, Shape.kept])]
  unfold ScatterDims.resultIdx? at h
  split at h
  · rename_i hb
    have hi := Option.some.inj h
    have h0 := (hb 0).1
    rw [hs, hw] at h0
    rw [← hi]
    show _ = (((⟨[1], [0], [0], 1, wf⟩ : ScatterDims ⟨2, ![N, C]⟩ ⟨2, ![M, 1]⟩ ⟨2, ![M, C]⟩).start (ix2 e q) idx 0
      + ((⟨[1], [0], [0], 1, wf⟩ : ScatterDims ⟨2, ![N, C]⟩ ⟨2, ![M, 1]⟩ ⟨2, ![M, C]⟩).window (ix2 e q) 0 : Int)).toNat : Int)
    rw [hs, hw]
    omega
  · exact absurd h (by simp)

end Cert.ScatterRows

end
-- ==== Proof.NormAgg.lean ====
/-
  A normalised graph aggregation on the extended reals, in two spellings.

  A graph on `N` nodes is given by `E` edges, edge `e` going from the node `colW e` to the node `rowIdx e`; `h : [N, C]`
  holds one row of features per node and `dis : [N]` one non-negative real factor per node. The aggregation sends to
  every node `r` the sum, over the edges `e` that arrive at `r`, of the row of `h` at the edge's source, weighted by
  `dis (source) · dis r`.

  One spelling scales the rows of `h` by `dis` first, gathers the scaled rows at the sources, sums them at the targets
  and scales the rows of the result by `dis` again. The other gathers the rows of `h` at the sources, multiplies each
  gathered row by the edge's weight `(dis (target) · 1) · dis (source)` — both factors gathered from `dis`, the target
  through start indices `rowW` that agree with `rowIdx` wherever `rowIdx` names a row of the operand — and sums at the
  targets. A gather clamps its start index into the operand, a scatter drops an update whose row is outside it; an
  update that is not dropped has its row inside, where clamping changes nothing, so both spellings sum the same terms
  over the same edges. The factor `dis r` leaves the sum because it is a non-negative REAL: on the extended reals a
  product by such a factor distributes over every sum, whatever infinities the terms hold.

  The factor of a node is `1/√(degree)` where the degree (the number of edges arriving, counted by summing ones) is
  positive and `0` elsewhere: a non-negative real.
-/
import Idealize.ShloMosaic.PureOps.Ideal.Laws
import Idealize.ShloMosaic.Lib.ValueIdx
import Idealize.ShloMosaic.Lib.Pipeline.Value
import proofs.«179773_j80247168959057_2_alg».proof.Proof.LibDense
import proofs.«179773_j80247168959057_2_alg».proof.Proof.LibRowScale
import proofs.«179773_j80247168959057_2_alg».proof.Proof.LibGatherRows
import proofs.«179773_j80247168959057_2_alg».proof.Proof.LibScatterRows

noncomputable section

open scoped BigOperators

namespace Cert.NormAgg

open Idealize.ShloMosaic Idealize.ShloMosaic.ValueIdx Cert.Dense Cert.RowScale

/-! ## A non-negative real factor leaves a sum of extended reals -/

/-- On the extended reals a product by a non-negative real distributes over a finite sum, with no finiteness asked of
    the terms. -/
theorem sum_mul_nonneg_real {ι : Type} (s : Finset ι) (a : ι → EReal) (r : ℝ) (hr : 0 ≤ r) :
    (∑ j ∈ s, a j) * (r : EReal) = ∑ j ∈ s, a j * (r : EReal) := by
  classical
  refine Finset.induction_on s ?_ ?_
  · rw [Finset.sum_empty, Finset.sum_empty, zero_mul]
  · intro x t hx ih
    rw [Finset.sum_insert hx, Finset.sum_insert hx,
      EReal.right_distrib_of_nonneg_of_ne_top (EReal.coe_nonneg.mpr hr) (EReal.coe_ne_top r), ih]

/-! ## The host's accumulating scatter at an index -/

/-- The accumulating scatter at `i`: the operand's element plus the sum of the updates that land on `i`. -/
theorem scatterAdd_apply {s si u : Shape} {w : Nat} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

/-! ## The degree factor is a non-negative real -/

/-- A finite sum of ones is the number of its terms. -/
theorem sum_ones {ι : Type} (S : Finset ι) (f : ι → EReal) (hf : ∀ j, f j = 1) :
    ∑ j ∈ S, f j = ((S.card : ℝ) : EReal) := by
  rw [Finset.sum_congr rfl (fun j _ => hf j), Finset.sum_const, EReal.nsmul_eq_mul, mul_one]
  rfl

/-- At a natural number `m`: `1/√m` where `m` is positive, `0` where it is not — a non-negative real either way. -/
theorem select_rsqrt_nat (m : ℕ) : ∃ r : ℝ, 0 ≤ r ∧
    Scalar.select (Ideal.cmp .ogt ((m : ℝ) : EReal) 0) (Ideal.rsqrt ((m : ℝ) : EReal)) (0 : EReal) = (r : EReal) := by
  rcases Nat.eq_zero_or_pos m with rfl | hm
  · refine ⟨0, le_rfl, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (m : ℝ) := Nat.cast_pos.mpr hm
    refine ⟨(Real.sqrt m)⁻¹, inv_nonneg.mpr (Real.sqrt_nonneg _), ?_⟩
    have hc : Ideal.cmp .ogt ((m : ℝ) : EReal) 0 = 1#1 := by
      show BitVec.ofBool (decide ((0 : EReal) < ((m : ℝ) : EReal))) = 1#1
      rw [decide_eq_true (EReal.coe_pos.mpr hpos)]
      rfl
    rw [hc, select_one, Ideal.rsqrt_coe, if_neg (not_lt.mpr hpos.le), if_neg hpos.ne']

/-- THE DEGREE FACTOR: the degree of a node is zero plus a sum of ones over the edges that arrive, a natural number;
    where it exceeds zero the factor is its reciprocal square root, elsewhere zero. -/
theorem dis_nonneg_real {N E : ℕ} (dv : ScatterDims ⟨1, ![N]⟩ ⟨2, ![E, 1]⟩ ⟨1, ![E]⟩) (Zv z z' : Row N)
    (hZv : ∀ n, Zv n = 0) (hz : ∀ n, z n = 0) (hz' : ∀ n, z' n = 0) (ones : Row E) (hones : ∀ e, ones e = 1)
    (idx : IVec ⟨2, ![E, 1]⟩ 32) (n : (⟨1, ![N]⟩ : Shape).Idx) :
    ∃ r : ℝ, 0 ≤ r ∧
      select (cmpf .ogt (Host.scatterAdd (F := Ideal) (φ := .f32) dv Zv idx ones) z)
        (Host.rsqrt (F := Ideal) (φ := .f32) (Host.scatterAdd (F := Ideal) (φ := .f32) dv Zv idx ones)) z' n = (r : EReal) := by
  obtain ⟨m, hm⟩ : ∃ m : ℕ, Host.scatterAdd (F := Ideal) (φ := .f32) dv Zv idx ones n = ((m : ℝ) : EReal) :=
    ⟨_, by rw [scatterAdd_apply, hZv, zero_add, sum_ones _ _ hones]⟩
  obtain ⟨r, hr, hsel⟩ := select_rsqrt_nat m
  refine ⟨r, hr, ?_⟩
  show Scalar.select (Ideal.cmp .ogt (Host.scatterAdd (F := Ideal) (φ := .f32) dv Zv idx ones n) (z n))
    (Ideal.rsqrt (Host.scatterAdd (F := Ideal) (φ := .f32) dv Zv idx ones n)) (z' n) = _
  rw [hm, hz, hz']
  exact hsel

/-! ## The bridge -/

/-- THE BRIDGE between the two spellings of the aggregation, at every entry. -/
theorem bridge {N C E : ℕ} (hN : 0 < N)
    (dS dS' : ScatterDims ⟨2, ![N, C]⟩ ⟨2, ![E, 1]⟩ ⟨2, ![E, C]⟩)
    (hS1 : dS.updateWindowDims = [1]) (hS2 : dS.insertedWindowDims = [0]) (hS3 : dS.scatterDimsToOperandDims = [0])
    (hS4 : dS.indexVectorDim = 1)
    (hS1' : dS'.updateWindowDims = [1]) (hS2' : dS'.insertedWindowDims = [0]) (hS3' : dS'.scatterDimsToOperandDims = [0])
    (hS4' : dS'.indexVectorDim = 1)
    (dG dG' : GatherDims ⟨2, ![N, C]⟩ ⟨2, ![E, 1]⟩ ⟨2, ![E, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (hG1' : dG'.offsetDims = [1]) (hG2' : dG'.collapsedSliceDims = [0]) (hG3' : dG'.operandBatchingDims = [])
    (hG4' : dG'.startIndicesBatchingDims = []) (hG5' : dG'.startIndexMap = [0]) (hG6' : dG'.indexVectorDim = 1)
    (hG7' : dG'.sliceSizes = ![1, C])
    (dV : GatherDims ⟨1, ![N]⟩ ⟨2, ![E, 1]⟩ ⟨1, ![E]⟩)
    (hV1 : dV.offsetDims = []) (hV2 : dV.collapsedSliceDims = [0]) (hV3 : dV.operandBatchingDims = [])
    (hV4 : dV.startIndicesBatchingDims = []) (hV5 : dV.startIndexMap = [0]) (hV6 : dV.indexVectorDim = 1)
    (hV7 : dV.sliceSizes = ![1])
    (hb1 : (⟨1, ![E]⟩ : Shape).BroadcastsInDim ⟨2, ![E, 1]⟩ ![0])
    (hb2 : (⟨2, ![E, 1]⟩ : Shape).BroadcastsInDim ⟨2, ![E, C]⟩ ![0, 1])
    (h : Mat N C) (dis : Row N) (hdis : ∀ n, ∃ r : ℝ, 0 ≤ r ∧ dis n = (r : EReal))
    (Z Z' : Mat N C) (hZ : ∀ i, Z i = 0) (hZ' : ∀ i, Z' i = 0) (ones : Row E) (hones : ∀ e, ones e = 1)
    (rowIdx colW rowW : IVec ⟨2, ![E, 1]⟩ 32)
    (hrowW : ∀ e : Fin E, 0 ≤ (rowIdx (ix2 e (0 : Fin 1))).toInt → (rowIdx (ix2 e (0 : Fin 1))).toInt < (N : Int) →
      rowW (ix2 e (0 : Fin 1)) = rowIdx (ix2 e (0 : Fin 1)))
    (i : (⟨2, ![N, C]⟩ : Shape).Idx) :
    scaleRows (Host.scatterAdd (F := Ideal) (φ := .f32) dS Z rowIdx (Host.gather dG (scaleRows h (col dis)) colW)) (col dis) i
      = Host.scatterAdd (F := Ideal) (φ := .f32) dS' Z' rowIdx
          (mulf (F := Ideal) (φ := .f32) (Host.gather dG' h colW)
            (broadcastInDim ⟨2, ![E, C]⟩ ![0, 1] hb2 (broadcastInDim ⟨2, ![E, 1]⟩ ![0] hb1
              (mulf (F := Ideal) (φ := .f32) (mulf (F := Ideal) (φ := .f32) (Host.gather dV dis rowW) ones)
                (Host.gather dV dis colW))))) i := by
  obtain rfl : dS' = dS := Cert.ScatterRows.scatterDims_eq _ _ (hS1'.trans hS1.symm) (hS2'.trans hS2.symm)
    (hS3'.trans hS3.symm) (hS4'.trans hS4.symm)
  obtain rfl : dG' = dG := Cert.GatherRows.gatherDims_eq _ _ (hG1'.trans hG1.symm) (hG2'.trans hG2.symm)
    (hG3'.trans hG3.symm) (hG4'.trans hG4.symm) (hG5'.trans hG5.symm) (hG6'.trans hG6.symm) (hG7'.trans hG7.symm)
  obtain ⟨r, q, rfl⟩ : ∃ (r : Fin N) (q : Fin C), i = ix2 r q := ⟨i 0, i 1, eq_ix2 i⟩
  obtain ⟨ρ, hρ, hdr⟩ := hdis (ix1 r)
  rw [hostScaleRows (Host.gather dG' h colW) _ hb1 hb2, scaleRows_apply, col_apply, scatterAdd_apply, scatterAdd_apply,
    hZ, hZ', zero_add, zero_add, hdr, sum_mul_nonneg_real _ _ ρ hρ, ← hdr]
  refine Finset.sum_congr rfl fun j hj => ?_
  have hj' := (Finset.mem_filter.mp hj).2
  obtain ⟨e, q', rfl⟩ : ∃ (e : Fin E) (q' : Fin C), j = ix2 e q' := ⟨j 0, j 1, eq_ix2 j⟩
  have hrow : (rowIdx (ix2 e (0 : Fin 1))).toInt = ((r.val : ℕ) : Int) :=
    Cert.ScatterRows.hit_row dS' hS1' hS2' hS3' hS4' rowIdx e q' (ix2 r q) hj'
  have hW : rowW (ix2 e (0 : Fin 1)) = rowIdx (ix2 e (0 : Fin 1)) :=
    hrowW e (by rw [hrow]; exact Int.natCast_nonneg _) (by rw [hrow]; exact_mod_cast r.isLt)
  have hclamp : (⟨min (rowW (ix2 e (0 : Fin 1))).toInt.toNat (N - 1), by omega⟩ : Fin N) = r := by
    refine Fin.ext ?_
    show min (rowW (ix2 e (0 : Fin 1))).toInt.toNat (N - 1) = r.val
    rw [hW, hrow, Int.toNat_natCast]
    have := r.isLt
    omega
  rw [Cert.GatherRows.gather_rows_apply hN dG' hG1' hG2' hG3' hG4' hG5' hG6' hG7' _ colW e q',
    scaleRows_apply, col_apply, scaleRows_apply, col_apply,
    Cert.GatherRows.gather_rows_apply hN dG' hG1' hG2' hG3' hG4' hG5' hG6' hG7' h colW e q',
    mulf_apply, mulf_apply,
    Cert.GatherRows.gather_vec_apply' hN dV hV1 hV2 hV3 hV4 hV5 hV6 hV7 dis rowW e,
    Cert.GatherRows.gather_vec_apply' hN dV hV1 hV2 hV3 hV4 hV5 hV6 hV7 dis colW e,
    hclamp, hones, mul_one, mul_assoc, mul_comm (dis (ix1 r))]

end Cert.NormAgg

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«179773_j80247168959057_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.Equivalence.lean ====
/-
  The reference's result is the idealized kernel's, as functions of the arguments.

  The reference projects the features (`h = x · wᵀ`), gathers per edge the degree scaling of the edge's target and of its
  source, multiplies the gathered row of `h` at the source by `(dis target · 1) · dis source`, and adds the products by
  target row. The kernel scales the rows of `h` by `dis`, aggregates, and scales the rows of the sum by `dis` again. An
  edge whose target index is not a row of the result contributes to neither sum; for the others the target index is not
  negative, so the index wrap leaves it alone. `dis` is a non-negative real at every node, so it leaves the sum; what
  remains is commutativity and associativity of the product on the extended reals.
-/
import proofs.«179773_j80247168959057_2_alg».proof.Proof.KernelValue
import proofs.«179773_j80247168959057_2_alg».proof.Proof.RefRun
import proofs.«179773_j80247168959057_2_alg».proof.Proof.NormAgg
import proofs.«179773_j80247168959057_2_alg».proof.Proof.LibHostLayout
import Idealize.ShloMosaic.Lib.IdealHost

set_option maxRecDepth 16384

noncomputable section

namespace Cert.Equivalence

open Cert.KernelIdeal Cert.KernelIdeal.Gen Cert.KernelIdeal.HostFold Cert.KernelIdeal.KernelValue Cert.Dense Cert.RowScale
open Idealize.ShloMosaic Idealize.ShloMosaic.TcCoe Idealize.ShloMosaic.ValueIdx Idealize.SL.Sem

/-! ## The constant arrays -/

theorem zeroVec_apply (n : S100000.Idx) : zeroVec n = 0 :=
  (broadcastInDim_scalar_apply _ _ n).trans Ideal.ofBits_zero_f32

theorem oneVec_apply (j : S1600000.Idx) : oneVec j = 1 :=
  (broadcastInDim_scalar_apply _ _ j).trans Ideal.ofBits_one_f32

theorem zeroMat_apply (i : S100000x128.Idx) : zeroMat i = 0 :=
  (broadcastInDim_scalar_apply _ _ i).trans Ideal.ofBits_zero_f32

/-! ## The index arrays -/

/-- A vector laid out as a column reads, at row `j`, the vector at `j`. -/
theorem asColumn_apply (v : IVec S1600000 32) (j : Fin 1600000) : asColumn v (ix2 j (0 : Fin 1)) = v (ix1 j) :=
  Cert.HostLayout.bcast_vec_col v _ j 0

/-- The index wrap leaves an index that is not negative alone. -/
theorem wrap_of_nonneg (v : IVec S1600000 32) (j : S1600000.Idx) (h : 0 ≤ (v j).toInt) : wrap v j = v j := by
  have hlt : (v j).slt 0#32 = false := by
    simp only [BitVec.slt, BitVec.toInt_zero, decide_eq_false_iff_not, Int.not_lt]
    exact h
  show (if BitVec.ofBool ((v j).slt 0#32) = 1 then _ else _) = _
  rw [hlt]
  rfl

/-! ## The degree scaling is a non-negative real -/

theorem dis_real (e : IVec S2x1600000 32) (n : S100000.Idx) : ∃ r : ℝ, 0 ≤ r ∧ dis e n = (r : EReal) :=
  Cert.NormAgg.dis_nonneg_real scatter_S100000_S1600000x1_S1600000_n_0_0_1 zeroVec zeroVec zeroVec zeroVec_apply zeroVec_apply
    zeroVec_apply oneVec oneVec_apply (asColumn (colVec e)) n

/-! ## The two results are one function -/

theorem result_eq (x : FVec Ideal S100000x128 .f32) (w : FVec Ideal S128x128 .f32) (e : IVec S2x1600000 32) :
    Host.scatterAdd (F := Ideal) Cert.ReferenceIdeal.scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![0, 0] e slices_S2x1600000_S1x1600000_0_0) shapeCasts_S1x1600000_S1600000)) (mulf (F := Ideal) (Host.gather Cert.ReferenceIdeal.gather_S100000x128_S1600000x1_S1600000x128_1_0_n_n_0_1_1128 (Host.dotGeneral (F := Ideal) Cert.ReferenceIdeal.dot_S100000x128_S128x128_S100000x128_1_0_0_1_n_n none x (transpose S128x128 [1, 0] w transposes_S128x128_S128x128_1_0)) (broadcastInDim S1600000x1 ![0] bcast_S1600000_S1600000x1_0 (select (cmpi .slt (shapeCast _ (extractStridedSlice S1x1600000 ![1, 0] e slices_S2x1600000_S1x1600000_1_0) shapeCasts_S1x1600000_S1600000) (broadcastInDim S1600000 ![] bcast_S_S1600000 (constantI S_ 32 0#32))) (addi (shapeCast _ (extractStridedSlice S1x1600000 ![1, 0] e slices_S2x1600000_S1x1600000_1_0) shapeCasts_S1x1600000_S1600000) (broadcastInDim S1600000 ![] bcast_S_S1600000 (constantI S_ 32 100000#32))) (shapeCast _ (extractStridedSlice S1x1600000 ![1, 0] e slices_S2x1600000_S1x1600000_1_0) shapeCasts_S1x1600000_S1600000)))) (broadcastInDim S1600000x128 ![0, 1] Cert.ReferenceIdeal.Gen.bcast_S1600000x1_S1600000x128_0_1 (broadcastInDim S1600000x1 ![0] bcast_S1600000_S1600000x1_0 (mulf (F := Ideal) (mulf (F := Ideal) (Host.gather Cert.ReferenceIdeal.gather_S100000_S1600000x1_S1600000_n_0_n_n_0_1_1 (select (cmpf (F := Ideal) .ogt (Host.scatterAdd (F := Ideal) Cert.ReferenceIdeal.scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x00000000#32))) (Host.rsqrt (F := Ideal) (Host.scatterAdd (F := Ideal) Cert.ReferenceIdeal.scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32)))) (broadcastInDim S100000 ![] bcast_S_S100000 (id (constant (F := Ideal) S_ .f32 0x00000000#32)))) (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000)))) (broadcastInDim S1600000 ![] bcast_S_S1600000 (constant (F := Ideal) S_ .f32 0x3F800000#32))) (Host.gather Cert.ReferenceIdeal.gather_S100000_S1600000x1_S1600000_n_0_n_n_0_1_1 (select (cmpf (F := Ideal) .ogt (Host.scatterAdd (F := Ideal) Cert.ReferenceIdeal.scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x00000000#32))) (Host.rsqrt (F := Ideal) (Host.scatterAdd (F := Ideal) Cert.ReferenceIdeal.scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32)))) (broadcastInDim S100000 ![] bcast_S_S100000 (id (constant (F := Ideal) S_ .f32 0x00000000#32)))) (broadcastInDim S1600000x1 ![0] bcast_S1600000_S1600000x1_0 (select (cmpi .slt (shapeCast _ (extractStridedSlice S1x1600000 ![1, 0] e slices_S2x1600000_S1x1600000_1_0) shapeCasts_S1x1600000_S1600000) (broadcastInDim S1600000 ![] bcast_S_S1600000 (constantI S_ 32 0#32))) (addi (shapeCast _ (extractStridedSlice S1x1600000 ![1, 0] e slices_S2x1600000_S1x1600000_1_0) shapeCasts_S1x1600000_S1600000) (broadcastInDim S1600000 ![] bcast_S_S1600000 (constantI S_ 32 100000#32))) (shapeCast _ (extractStridedSlice S1x1600000 ![1, 0] e slices_S2x1600000_S1x1600000_1_0) shapeCasts_S1x1600000_S1600000))))))))
      = result x w e := by
  funext i
  unfold result aggregate
  rw [Cert.Dense.hostDot_eq_mm Cert.ReferenceIdeal.dot_S100000x128_S128x128_S100000x128_1_0_0_1_n_n rfl rfl rfl rfl rfl rfl,
    show disCol e = col (dis e) from Cert.RowScale.shapeCast_col _ _]
  exact (Cert.NormAgg.bridge (N := 100000) (C := 128) (E := 1600000) (by norm_num)
    scatter_S100000x128_S1600000x1_S1600000x128_1_0_0_1 Cert.ReferenceIdeal.scatter_S100000x128_S1600000x1_S1600000x128_1_0_0_1
    rfl rfl rfl rfl rfl rfl rfl rfl
    gather_S100000x128_S1600000x1_S1600000x128_1_0_n_n_0_1_1128 Cert.ReferenceIdeal.gather_S100000x128_S1600000x1_S1600000x128_1_0_n_n_0_1_1128
    rfl rfl rfl rfl rfl rfl rfl rfl rfl rfl rfl rfl rfl rfl
    Cert.ReferenceIdeal.gather_S100000_S1600000x1_S1600000_n_0_n_n_0_1_1 rfl rfl rfl rfl rfl rfl rfl
    bcast_S1600000_S1600000x1_0 Cert.ReferenceIdeal.Gen.bcast_S1600000x1_S1600000x128_0_1
    (mm x (transpose S128x128 [1, 0] w transposes_S128x128_S128x128_1_0)) (dis e) (dis_real e)
    zeroMat zeroMat zeroMat_apply zeroMat_apply oneVec oneVec_apply
    (asColumn (rowVec e)) (asColumn (wrap (colVec e))) (asColumn (wrap (rowVec e)))
    (fun j h0 _ => by
      rw [asColumn_apply] at h0
      rw [asColumn_apply, asColumn_apply]
      exact wrap_of_nonneg _ _ h0)
    i).symm

end Cert.Equivalence

end
-- ==== Proof.lean ====
/-
  A graph convolution's normalised aggregation, with the degree normalisation factored onto the nodes, against the
  per-edge reference.

  With `h = x · wᵀ` the projected features, `deg n` the number of edges whose source is node `n` and
  `dis n = 1/√(deg n)` where the degree is positive (zero elsewhere), the reference computes, for every node `r` and
  channel `q`, the sum over the edges `e` arriving at `r` of `h (source e, q) · ((dis (target e) · 1) · dis (source e))`.
  The kernel computes `dis r · ∑ (h (source e, q) · dis (source e))` over the same edges: one pipelined region projects
  and scales the rows, the host gathers and adds by target row, a second region scales the rows of the sum. At the ideal
  instance the two agree at every entry: an edge contributes to a node's sum only if its target index is that node, a
  row of the result, and `dis` is a non-negative real, which leaves a sum of extended reals whatever the terms hold.
  So the claim needs nothing of the precondition beyond what the frames take.

  The three frames: the two kernel programs' are the generated ones; the reference's is its run with the result dropped.
  No operation was rewritten by the idealization, so its preservation has nothing to state.
-/
import proofs.«179773_j80247168959057_2_alg».proof.Defs
import proofs.«179773_j80247168959057_2_alg».proof.Proof.Gen.Kernel
import proofs.«179773_j80247168959057_2_alg».proof.Proof.Gen.Kernel.Skeleton
import proofs.«179773_j80247168959057_2_alg».proof.Proof.Gen.Kernel.Launch
import proofs.«179773_j80247168959057_2_alg».proof.Proof.Gen.Kernel.Points
import proofs.«179773_j80247168959057_2_alg».proof.Proof.Gen.Kernel.Frame
import proofs.«179773_j80247168959057_2_alg».proof.Proof.Gen.KernelIdeal
import proofs.«179773_j80247168959057_2_alg».proof.Proof.Gen.KernelIdeal.Skeleton
import proofs.«179773_j80247168959057_2_alg».proof.Proof.Gen.KernelIdeal.Launch
import proofs.«179773_j80247168959057_2_alg».proof.Proof.Gen.KernelIdeal.Points
import proofs.«179773_j80247168959057_2_alg».proof.Proof.Gen.KernelIdeal.Frame
import proofs.«179773_j80247168959057_2_alg».proof.Proof.Gen.ReferenceIdeal
import proofs.«179773_j80247168959057_2_alg».proof.Proof.Gen.Pre_finite_inputs
import proofs.«179773_j80247168959057_2_alg».proof.Proof.KernelValue
import proofs.«179773_j80247168959057_2_alg».proof.Proof.RefRun
import proofs.«179773_j80247168959057_2_alg».proof.Proof.Equivalence
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments the idealized kernel ends at `result` of its arguments, the reference at its
    composed term of its own, and the two are one function of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  unfold Cert.ReferenceIdeal.ValueP.res_main_v42
  rw [(hagree c).1, (hagree c).2.1, (hagree c).2.2]
  exact Cert.Equivalence.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
